-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S256x256 : Shape := ⟨2, ![256, 256]⟩
abbrev S256 : Shape := ⟨1, ![256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S64x1024x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S64x1024x256 : Shape := ⟨3, ![64, 1024, 256]⟩
abbrev S256x256 : Shape := ⟨2, ![256, 256]⟩
abbrev S256 : Shape := ⟨1, ![256]⟩
abbrev S1x1024x256 : Shape := ⟨3, ![1, 1024, 256]⟩
abbrev S1x256x256 : Shape := ⟨3, ![1, 256, 256]⟩
abbrev S1024x256 : Shape := ⟨2, ![1024, 256]⟩
abbrev S1x256 : Shape := ⟨2, ![1, 256]⟩
abbrev S256x1024 : Shape := ⟨2, ![256, 1024]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S64x1024x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S64x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1x256x256, .f32⟩
  | .local _ .vmem, ⟨9, _⟩ => ⟨S1x256x256, .f32⟩
  | .local _ .vmem, ⟨10, _⟩ => ⟨S1024x256, .bf16⟩
  | .local _ .vmem, ⟨11, _⟩ => ⟨S1024x256, .bf16⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![64, 4], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  h_S1x256x256 : 0 < S1x256x256.numel
  shapeCasts_S1x256x256_S256x256 : S1x256x256.ShapeCasts S256x256
  broadcasts_S1x256_S256x256 : S1x256.Broadcasts S256x256
  reduces_S256x1024_S256 : S256x1024.Reduces [1] S256
  shapeCasts_S256_S256x1 : S256.ShapeCasts S256x1
  broadcasts_S256x1_S256x1024 : S256x1.Broadcasts S256x1024
  broadcasts_S256x1_S256x256 : S256x1.Broadcasts S256x256
  inb_S1x256x256_S1x256x256_0_0_0 : ∀ a, (![0, 0, 0] : Fin 3 → Nat) a + S1x256x256.size a ≤ S1x256x256.size a
  shapeCasts_S256x256_S1x256x256 : S256x256.ShapeCasts S1x256x256
  dot_S1024x256_S256x256_S1024x256_1_0_0_1_n_n_wf : DotDims.WF S1024x256 S256x256 S1024x256 [1] [0] [0] [1] [] []
  dot_S256x256_S256x256_S256x256_1_0_0_1_n_n_wf : DotDims.WF S256x256 S256x256 S256x256 [1] [0] [0] [1] [] []
  dot_S256x256_S1024x256_S256x1024_1_1_0_0_n_n_wf : DotDims.WF S256x256 S1024x256 S256x1024 [1] [1] [0] [0] [] []
  dot_S256x1024_S1024x256_S256x256_1_0_0_1_n_n_wf : DotDims.WF S256x1024 S1024x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x1024x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S64x1024x256.size a
  hwx0_0 : ∀ i : grid0.Coords, EltTy.bits .f32 = 32 ∨ (Rect.block (s := S64x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x256.size a ≤ S64x1024x256.size a
  hwx0_7 : ∀ i : grid0.Coords, EltTy.bits .f32 = 32 ∨ (Rect.block (s := S64x1024x256) S1x256x256.size (cc0_transform_7 i) (hinb0_7 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S256x256 : Shape := ⟨2, ![256, 256]⟩
abbrev S256 : Shape := ⟨1, ![256]⟩
abbrev S1x1x256 : Shape := ⟨3, ![1, 1, 256]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 35
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S64x1024x256, .f32⟩
  | .hbm, ⟨8, _⟩ => ⟨S1x1x256, .f32⟩
  | .hbm, ⟨9, _⟩ => ⟨S64x1024x256, .f32⟩
  | .hbm, ⟨10, _⟩ => ⟨S64x1024x256, .f32⟩
  | .hbm, ⟨11, _⟩ => ⟨S64x1024x256, .f32⟩
  | .hbm, ⟨12, _⟩ => ⟨S1x1x256, .f32⟩
  | .hbm, ⟨13, _⟩ => ⟨S64x1024x256, .f32⟩
  | .hbm, ⟨14, _⟩ => ⟨S64x1024x256, .f32⟩
  | .hbm, ⟨15, _⟩ => ⟨S64x1024x256, .f32⟩
  | .hbm, ⟨16, _⟩ => ⟨S1x1x256, .f32⟩
  | .hbm, ⟨17, _⟩ => ⟨S64x1024x256, .f32⟩
  | .hbm, ⟨18, _⟩ => ⟨S64x1024x256, .f32⟩
  | .hbm, ⟨19, _⟩ => ⟨S64x1024x1024, .f32⟩
  | .hbm, ⟨20, _⟩ => ⟨S_, .f32⟩
  | .hbm, ⟨21, _⟩ => ⟨S64x1024, .f32⟩
  | .hbm, ⟨22, _⟩ => ⟨S_, .f32⟩
  | .hbm, ⟨23, _⟩ => ⟨S64x1024, .f32⟩
  | .hbm, ⟨24, _⟩ => ⟨S64x1024, .f32⟩
  | .hbm, ⟨25, _⟩ => ⟨S64x1024x1, .f32⟩
  | .hbm, ⟨26, _⟩ => ⟨S64x1024x1024, .f32⟩
  | .hbm, ⟨27, _⟩ => ⟨S64x1024x1024, .f32⟩
  | .hbm, ⟨28, _⟩ => ⟨S64x1024x1024, .f32⟩
  | .hbm, ⟨29, _⟩ => ⟨S_, .f32⟩
  | .hbm, ⟨30, _⟩ => ⟨S64x1024, .f32⟩
  | .hbm, ⟨31, _⟩ => ⟨S64x1024x1, .f32⟩
  | .hbm, ⟨32, _⟩ => ⟨S64x1024x1024, .f32⟩
  | .hbm, ⟨33, _⟩ => ⟨S64x1024x1024, .f32⟩
  | .hbm, ⟨34, _⟩ => ⟨S64x1024x256, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x256_S256x256_S64x1024x256_2_0_01_1_n_n_wf : DotDims.WF S64x1024x256 S256x256 S64x1024x256 [2] [0] [0, 1] [1] [] []
  dot_S64x1024x256_S64x1024x256_S64x1024x1024_2_2_1_1_0_0_wf : DotDims.WF S64x1024x256 S64x1024x256 S64x1024x1024 [2] [2] [1] [1] [0] [0]
  dot_S64x1024x1024_S64x1024x256_S64x1024x256_2_1_1_2_0_0_wf : DotDims.WF S64x1024x1024 S64x1024x256 S64x1024x256 [2] [1] [1] [2] [0] [0]

variable [Facts₀]

def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf
def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf
def dot_S64x1024x1024_S64x1024x256_S64x1024x256_2_1_1_2_0_0 : DotDims S64x1024x1024 S64x1024x256 S64x1024x256 where
  lhsContracting := [2]
  rhsContracting := [1]
  lhsNonContracting := [1]
  rhsNonContracting := [2]
  lhsBatch := [0]
  rhsBatch := [0]
  wf := dot_S64x1024x1024_S64x1024x256_S64x1024x256_2_1_1_2_0_0_wf

class Facts : Prop extends Facts₀ where

variable [Facts]
-- ==== Proof.AttnSpec.lean ====
/-
  Softmax attention over the extended reals, as one function of the seven argument arrays, in the two orders of
  normalisation the two programs use, and the law that joins them.

  For a batch b, with q = x·Wq + bq, k = x·Wk + bk, v = x·Wv + bv (rows s of x[b] times a 256×256 matrix plus a
  bias row), the scores are sc[s, t] = Σ_h q[s, h] · k[t, h], a row's maximum is m[s] = max_t sc[s, t], the
  weights are w[s, t] = exp (sc[s, t] - m[s]) and the denominator is l[s] = Σ_t w[s, t]. One program divides
  after the value product,
      (Σ_t w[s, t] · v[t, d]) / l[s],
  the other before it,
      Σ_t (w[s, t] / l[s]) · v[t, d].
  When the scores and the values are real numbers the maximum is one of the scores, every weight is a positive
  real and so is l[s]; division by l[s] is then multiplication by the real 1 / l[s], which moves across the
  finite sum.
-/
import Idealize.ShloMosaic.PureOps.Ideal.Laws
import Idealize.ShloMosaic.Lib.ValueIdx

noncomputable section

namespace Cert.Attn

open Idealize.ShloMosaic Idealize.ShloMosaic.ValueIdx

abbrev SX : Shape := ⟨3, ![64, 1024, 256]⟩
abbrev SW : Shape := ⟨2, ![256, 256]⟩
abbrev SB : Shape := ⟨1, ![256]⟩

/-! ## The function -/

/-- The value both maximum reductions start from: the f32 pattern of minus infinity. -/
abbrev negInf : EReal := Ideal.ofBits .f32 0xFF800000#32

/-- Row s of x[b] times the matrix W, plus the bias row: entry h. -/
def proj (x : SX.Idx → EReal) (W : SW.Idx → EReal) (β : SB.Idx → EReal) (b : Fin 64) (s : Fin 1024) (h : Fin 256) : EReal :=
  (∑ e : Fin 256, x (ix3 b s e) * W (ix2 e h)) + β (ix1 h)

/-- The score of query row s against key row t. -/
def score (q k : Fin 1024 → Fin 256 → EReal) (s t : Fin 1024) : EReal := ∑ h : Fin 256, q s h * k t h

/-- A row's maximum, folded from minus infinity. -/
def rowMax (f : Fin 1024 → EReal) : EReal := (Finset.univ : Finset (Fin 1024)).fold max negInf f

/-- The unnormalised softmax weight of entry t of a row. -/
def weight (f : Fin 1024 → EReal) (t : Fin 1024) : EReal := Ideal.exp (f t - rowMax f)

/-- The softmax denominator of a row. -/
def denom (f : Fin 1024 → EReal) : EReal := ∑ t : Fin 1024, weight f t

/-- The context entry, normalised AFTER the value product. -/
def ctxAfter (f v : Fin 1024 → EReal) : EReal := Ideal.div (∑ t : Fin 1024, weight f t * v t) (denom f)

/-- The context entry, normalised BEFORE the value product. -/
def ctxBefore (f v : Fin 1024 → EReal) : EReal := ∑ t : Fin 1024, Ideal.div (weight f t) (denom f) * v t

/-- The score row of (b, s) from the argument arrays. -/
def scoreRow (x : SX.Idx → EReal) (Wq : SW.Idx → EReal) (bq : SB.Idx → EReal) (Wk : SW.Idx → EReal) (bk : SB.Idx → EReal)
    (b : Fin 64) (s : Fin 1024) : Fin 1024 → EReal :=
  score (proj x Wq bq b) (proj x Wk bk b) s

/-- Attention, normalised after the value product, as one array. -/
def attnAfter (x : SX.Idx → EReal) (Wq : SW.Idx → EReal) (bq : SB.Idx → EReal) (Wk : SW.Idx → EReal) (bk : SB.Idx → EReal)
    (Wv : SW.Idx → EReal) (bv : SB.Idx → EReal) : SX.Idx → EReal := fun i =>
  ctxAfter (scoreRow x Wq bq Wk bk (i 0) (i 1)) (fun t => proj x Wv bv (i 0) t (i 2))

/-- Attention, normalised before the value product, as one array. -/
def attnBefore (x : SX.Idx → EReal) (Wq : SW.Idx → EReal) (bq : SB.Idx → EReal) (Wk : SW.Idx → EReal) (bk : SB.Idx → EReal)
    (Wv : SW.Idx → EReal) (bv : SB.Idx → EReal) : SX.Idx → EReal := fun i =>
  ctxBefore (scoreRow x Wq bq Wk bk (i 0) (i 1)) (fun t => proj x Wv bv (i 0) t (i 2))

/-! ## Real-valued entries -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- The coercion of a finite real sum is the sum of the coercions. -/
theorem coe_sum {ι : Type*} (s : Finset ι) (g : ι → ℝ) : ((∑ i ∈ s, g i : ℝ) : EReal) = ∑ i ∈ s, (g i : EReal) := by
  classical
  refine Finset.induction_on s (by simp) fun a s ha ih => ?_
  rw [Finset.sum_insert ha, Finset.sum_insert ha, EReal.coe_add, ih]

theorem IsReal.sum {ι : Type*} (s : Finset ι) (g : ι → EReal) (hg : ∀ i, IsReal (g i)) : IsReal (∑ i ∈ s, g i) := by
  choose r hr using hg
  exact ⟨∑ i ∈ s, r i, by rw [coe_sum]; exact Finset.sum_congr rfl fun i _ => hr i⟩

theorem proj_isReal (x : SX.Idx → EReal) (W : SW.Idx → EReal) (β : SB.Idx → EReal) (hx : ∀ i, IsReal (x i))
    (hW : ∀ i, IsReal (W i)) (hβ : ∀ i, IsReal (β i)) (b : Fin 64) (s : Fin 1024) (h : Fin 256) : IsReal (proj x W β b s h) :=
  (IsReal.sum _ _ fun e => (hx _).mul (hW _)).add (hβ _)

theorem score_isReal (q k : Fin 1024 → Fin 256 → EReal) (hq : ∀ s h, IsReal (q s h)) (hk : ∀ t h, IsReal (k t h))
    (s t : Fin 1024) : IsReal (score q k s t) :=
  IsReal.sum _ _ fun h => (hq s h).mul (hk t h)

/-! ## The maximum is attained -/

theorem negInf_eq : negInf = (⊥ : EReal) := by simp [negInf, Ideal.ofBits, Ideal.ieee]

/-- The fold of max from ⊥ over a nonempty finite set is the function's value at one of its members. -/
theorem fold_max_bot_mem {ι : Type*} (f : ι → EReal) (s : Finset ι) (hs : s.Nonempty) :
    ∃ t ∈ s, s.fold max (⊥ : EReal) f = f t := by
  induction hs using Finset.Nonempty.cons_induction with
  | singleton a => exact ⟨a, Finset.mem_singleton_self a, by rw [Finset.fold_singleton]; exact max_eq_left bot_le⟩
  | cons a s ha hs ih =>
    obtain ⟨t, ht, e⟩ := ih
    rw [Finset.fold_cons, e]
    rcases le_total (f a) (f t) with h | h
    · exact ⟨t, Finset.mem_cons.mpr (Or.inr ht), max_eq_right h⟩
    · exact ⟨a, Finset.mem_cons_self a s, max_eq_left h⟩

theorem rowMax_mem (f : Fin 1024 → EReal) : ∃ t : Fin 1024, rowMax f = f t := by
  obtain ⟨t, -, e⟩ := fold_max_bot_mem f Finset.univ ⟨0, Finset.mem_univ _⟩
  exact ⟨t, by unfold rowMax; rw [negInf_eq]; exact e⟩

/-- Taking the maximum with minus infinity once more changes nothing. -/
theorem max_negInf (a : EReal) : max negInf a = a := by rw [negInf_eq]; exact max_eq_right bot_le

/-! ## The law -/

/-- Over real scores every weight is a positive real. -/
theorem weight_pos_real (f : Fin 1024 → EReal) (hf : ∀ t, IsReal (f t)) :
    ∃ w : Fin 1024 → ℝ, (∀ t, weight f t = (w t : EReal)) ∧ ∀ t, 0 < w t := by
  choose fr hfr using hf
  obtain ⟨t0, h0⟩ := rowMax_mem f
  refine ⟨fun t => Real.exp (fr t - fr t0), fun t => ?_, fun t => Real.exp_pos _⟩
  unfold weight
  rw [h0, hfr t, hfr t0, ← EReal.coe_sub]
  rfl

/-- Dividing the weighted sum by the denominator is summing the divided weights, over real scores and values. -/
theorem ctxAfter_eq_ctxBefore (f v : Fin 1024 → EReal) (hf : ∀ t, IsReal (f t)) (hv : ∀ t, IsReal (v t)) :
    ctxAfter f v = ctxBefore f v := by
  choose vr hvr using hv
  obtain ⟨w, hw, hpos⟩ := weight_pos_real f hf
  have hl : denom f = ((∑ t : Fin 1024, w t : ℝ) : EReal) := by
    unfold denom; rw [coe_sum]; exact Finset.sum_congr rfl fun t _ => hw t
  have hne : (∑ t : Fin 1024, w t) ≠ 0 := (Finset.sum_pos (fun t _ => hpos t) ⟨0, Finset.mem_univ _⟩).ne'
  unfold ctxAfter ctxBefore
  rw [hl]
  simp only [Ideal.div_coe hne, hw, hvr, ← EReal.coe_mul, ← coe_sum]
  refine congrArg _ ?_
  rw [Finset.sum_mul]
  exact Finset.sum_congr rfl fun t _ => by ring

/-- So the two arrays are one when every argument entry is a real number. -/
theorem attnAfter_eq_attnBefore (x : SX.Idx → EReal) (Wq : SW.Idx → EReal) (bq : SB.Idx → EReal) (Wk : SW.Idx → EReal)
    (bk : SB.Idx → EReal) (Wv : SW.Idx → EReal) (bv : SB.Idx → EReal) (hx : ∀ i, IsReal (x i)) (hWq : ∀ i, IsReal (Wq i))
    (hbq : ∀ i, IsReal (bq i)) (hWk : ∀ i, IsReal (Wk i)) (hbk : ∀ i, IsReal (bk i)) (hWv : ∀ i, IsReal (Wv i))
    (hbv : ∀ i, IsReal (bv i)) : attnAfter x Wq bq Wk bk Wv bv = attnBefore x Wq bq Wk bk Wv bv :=
  funext fun i => ctxAfter_eq_ctxBefore _ _
    (fun t => score_isReal _ _ (proj_isReal x Wq bq hx hWq hbq (i 0)) (proj_isReal x Wk bk hx hWk hbk (i 0)) (i 1) t)
    (fun t => proj_isReal x Wv bv hx hWv hbv (i 0) t (i 2))

end Cert.Attn

end
-- ==== Proof.KernelCases.lean ====
/-
  What one grid point of the attention kernel leaves behind, as values.

  The grid is (batch b, query tile qi). At qi = 0 the body projects the whole x[b] block to the keys
  K = x[b]·Wk + bk and the values V = x[b]·Wv + bv and stores them in two scratch buffers; at every point it
  takes the query tile (rows 256·qi … 256·qi + 255 of the x[b] block), projects it to Q, and stores the
  normalised context of Q against the K and V the scratch buffers hold. So

    at qi = 0 : scratch 0 ends at K, scratch 1 at V, and the output block is the context against THOSE;
    at qi > 0 : the scratch buffers keep what the point before left, and the output block is the context
                against that.

  Here each stored value is identified with the body's own arithmetic term over the blocks it loaded.
-/
import proofs.«166455_j53944789238186_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Cases

open Cert.KernelIdeal Cert.KernelIdeal.Gen

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The query tile of a point: the 256 rows of the x block starting at row 256·qi. -/
def queryTile (i : grid0.Coords) (x0 : Vec F S1x1024x256 .f32) : Vec F S1x256x256 .f32 :=
  View.ld x0 (Rect.unit (k0_off1 i) S1x256x256.size (k0_off1_inb i))

/-- At a first query tile, scratch 0 ends holding the keys of the whole x block. -/
theorem keys_first (c : Dev nD) (i : grid0.Coords) (arg2 : Memref sig .tc .vmem S1x1024x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S1024x256 .bf16) (harg10 : arg10.IsWhole) (arg11 : Memref sig .tc .vmem S1024x256 .bf16) (harg11 : arg11.IsWhole) (hc0 : cond0_0 i) (x0 : Vec F S1x1024x256 .f32) (x1 : Vec F S256x256 .f32) (x2 : Vec F S256 .f32) (x3 : Vec F S256x256 .f32) (x4 : Vec F S256 .f32) (x5 : Vec F S256x256 .f32) (x6 : Vec F S256 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay2 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero zeros2]
  simp only [View.readAt_eq_ld, harg2.read_unread, harg5.read_unread, harg6.read_unread,
    View.ld_unit_zero (S := S1x1024x256) zeros3, View.ld_unit_zero (S := S256x256) zeros2, View.ld_unit_zero (S := S256) zeros1]

/-- At a first query tile, scratch 1 ends holding the values of the whole x block. -/
theorem values_first (c : Dev nD) (i : grid0.Coords) (arg2 : Memref sig .tc .vmem S1x1024x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S1024x256 .bf16) (harg10 : arg10.IsWhole) (arg11 : Memref sig .tc .vmem S1024x256 .bf16) (harg11 : arg11.IsWhole) (hc0 : cond0_0 i) (x0 : Vec F S1x1024x256 .f32) (x1 : Vec F S256x256 .f32) (x2 : Vec F S256 .f32) (x3 : Vec F S256x256 .f32) (x4 : Vec F S256 .f32) (x5 : Vec F S256x256 .f32) (x6 : Vec F S256 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay3 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero zeros2]
  simp only [View.readAt_eq_ld, harg2.read_unread, harg7.read_unread, harg8.read_unread,
    View.ld_unit_zero (S := S1x1024x256) zeros3, View.ld_unit_zero (S := S256x256) zeros2, View.ld_unit_zero (S := S256) zeros1]

/-- At a first query tile the output block is the context of the query tile against the keys and values just stored. -/
theorem out_first (c : Dev nD) (i : grid0.Coords) (arg2 : Memref sig .tc .vmem S1x1024x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S1024x256 .bf16) (harg10 : arg10.IsWhole) (arg11 : Memref sig .tc .vmem S1024x256 .bf16) (harg11 : arg11.IsWhole) (hc0 : cond0_0 i) (x0 : Vec F S1x1024x256 .f32) (x1 : Vec F S256x256 .f32) (x2 : Vec F S256 .f32) (x3 : Vec F S256x256 .f32) (x4 : Vec F S256 .f32) (x5 : Vec F S256x256 .f32) (x6 : Vec F S256 .f32) :
    out0_A_7 c i arg2 harg2 arg3 harg3 arg4 harg4 arg5 harg5 arg6 harg6 arg7 harg7 arg8 harg8 arg9 harg9 arg10 harg10 arg11 harg11 hc0 x0 x1 x2 x3 x4 x5 x6
      = k0_pay4 (queryTile i x0) x1 x2 (k0_pay2 x0 x3 x4) (k0_pay3 x0 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero zeros3]
  simp only [View.readCov_unit_zero (S := S1024x256) _ zeros2]
  simp only [View.readAt_eq_ld, harg2.read_unread, harg3.read_unread, harg4.read_unread, harg5.read_unread, harg6.read_unread,
    harg7.read_unread, harg8.read_unread,
    View.ld_unit_zero (S := S1x1024x256) zeros3, View.ld_unit_zero (S := S256x256) zeros2, View.ld_unit_zero (S := S256) zeros1]
  rfl

/-- At a later query tile the output block is the context of the query tile against what the scratch buffers hold. -/
theorem out_later (c : Dev nD) (i : grid0.Coords) (arg2 : Memref sig .tc .vmem S1x1024x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S1024x256 .bf16) (harg10 : arg10.IsWhole) (arg11 : Memref sig .tc .vmem S1024x256 .bf16) (harg11 : arg11.IsWhole) (hc0 : ¬cond0_0 i) (x0 : Vec F S1x1024x256 .f32) (x1 : Vec F S256x256 .f32) (x2 : Vec F S256 .f32) (x3 : Vec F S256x256 .f32) (x4 : Vec F S256 .f32) (x5 : Vec F S256x256 .f32) (x6 : Vec F S256 .f32)
    (xs0 xs1 : Vec F S1024x256 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1
      = k0_pay4 (queryTile i x0) x1 x2 xs0 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero zeros3]
  simp only [View.readAt_eq_ld, harg2.read_unread, harg3.read_unread, harg4.read_unread, harg10.read_unread, harg11.read_unread,
    View.ld_unit_zero (S := S1x1024x256) zeros3, View.ld_unit_zero (S := S256x256) zeros2, View.ld_unit_zero (S := S256) zeros1,
    View.ld_unit_zero (S := S1024x256) zeros2]
  rfl

end Cert.KernelIdeal.Cases

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KernelEntry.lean ====
/-
  The attention kernel's arithmetic read at one entry, over the extended reals.

  The keys and values a first query tile stores are, at (t, h), row t of the x block times column h of the weight
  matrix plus the bias entry h. The output block a point stores is, at (r, d), the softmax context of query row r:
  with sc[t] = Σ_h Q[r, h] · K[t, h] and Q[r, h] = (Σ_e xq[r, e] · Wq[e, h]) + bq[h],
      (Σ_t exp (sc[t] - max sc) · V[t, d]) / (Σ_t exp (sc[t] - max sc)),
  the format changes between f32 and bf16 being the identity on the extended reals.
-/
import proofs.«166455_j53944789238186_2_alg».proof.Proof.Gen.KernelIdeal.Skeleton
import proofs.«166455_j53944789238186_2_alg».proof.Proof.AttnSpec
import proofs.«166455_j53944789238186_2_alg».proof.Proof.LibMatmulNN
import proofs.«166455_j53944789238186_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Entry

open Cert.KernelIdeal Cert.KernelIdeal.Gen Cert.Attn Cert.KeepdimsColumn

/-! ## Layout -/

/-- Row r of a [256, 1024] array with the column t put back is (r, t). -/
theorem lift_row (h : S256x1024.Reduces [1] S256) (r : Fin 256) (t : Fin 1024) :
    h.lift (ix1 r) t = ix2 r t := by
  funext c; apply Fin.ext
  fin_cases c <;> rfl

/-! ## The score product: rows of Q against rows of K -/

/-- The left operand's row coordinate is the output's row. -/
theorem scores_lhs0 (i : S256x1024.Idx) (q : dot_S256x256_S1024x256_S256x1024_1_1_0_0_n_n.contr.Idx) : (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide),
    dif_pos (show (0 : Fin S256x256.rank) ∈ dot_S256x256_S1024x256_S256x1024_1_1_0_0_n_n.lhsNonContracting by decide)]
  rfl
/-- The left operand's column coordinate is the contraction position. -/
theorem scores_lhs1 (i : S256x1024.Idx) (q : dot_S256x256_S1024x256_S256x1024_1_1_0_0_n_n.contr.Idx) : (dot_S256x256_S1024x256_S256x1024_1_1_0_0_n_n.lhsIdx i q 1).val = (q ⟨0, by decide⟩).val :=
  dot_S256x256_S1024x256_S256x1024_1_1_0_0_n_n.lhsIdx_val_of_single rfl i q
/-- The right operand's row coordinate is the output's column. -/
theorem scores_rhs0 (i : S256x1024.Idx) (q : dot_S256x256_S1024x256_S256x1024_1_1_0_0_n_n.contr.Idx) : (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide),
    dif_pos (show (0 : Fin S1024x256.rank) ∈ dot_S256x256_S1024x256_S256x1024_1_1_0_0_n_n.rhsNonContracting by decide)]
  rfl
/-- The right operand's column coordinate is the contraction position. -/
theorem scores_rhs1 (i : S256x1024.Idx) (q : dot_S256x256_S1024x256_S256x1024_1_1_0_0_n_n.contr.Idx) : (dot_S256x256_S1024x256_S256x1024_1_1_0_0_n_n.rhsIdx i q 1).val = (q ⟨0, by decide⟩).val :=
  dot_S256x256_S1024x256_S256x1024_1_1_0_0_n_n.rhsIdx_val_of_single rfl i q

/-- The product that contracts axis 1 of both operands, into zeros, at (r, t): the inner product of row r of the
    left operand with row t of the right one. -/
theorem scores_apply (q : FVec Ideal S256x256 .bf16) (kk : FVec Ideal S1024x256 .bf16) (r : Fin 256) (t : Fin 1024) :
    FloatOps.matmul dot_S256x256_S1024x256_S256x1024_1_1_0_0_n_n none q kk (constant (F := Ideal) S256x1024 .f32 0x00000000#32) (ix2 r t)
      = ∑ h : Fin 256, q (ix2 r h) * kk (ix2 t h) := by
  rw [Ideal.matmul_constant_zero_apply, ← Equiv.sum_comp (contrEquiv1 dot_S256x256_S1024x256_S256x1024_1_1_0_0_n_n 256 rfl rfl).symm]
  refine Finset.sum_congr rfl fun k _ => ?_
  have hk := contrEquiv1_symm_val dot_S256x256_S1024x256_S256x1024_1_1_0_0_n_n 256 rfl rfl k
  have el : dot_S256x256_S1024x256_S256x1024_1_1_0_0_n_n.lhsIdx (ix2 r t) ((contrEquiv1 dot_S256x256_S1024x256_S256x1024_1_1_0_0_n_n 256 rfl rfl).symm k) = ix2 r k :=
    funext fun a => Fin.ext (by
      match a with
      | ⟨0, _⟩ => exact scores_lhs0 _ _
      | ⟨1, _⟩ => exact (scores_lhs1 _ _).trans hk)
  have er : dot_S256x256_S1024x256_S256x1024_1_1_0_0_n_n.rhsIdx (ix2 r t) ((contrEquiv1 dot_S256x256_S1024x256_S256x1024_1_1_0_0_n_n 256 rfl rfl).symm k) = ix2 t k :=
    funext fun a => Fin.ext (by
      match a with
      | ⟨0, _⟩ => exact scores_rhs0 _ _
      | ⟨1, _⟩ => exact (scores_rhs1 _ _).trans hk)
  rw [el, er]

/-! ## The keys and the values at an entry -/

/-- The stored keys at (t, h): row t of the x block times column h of the key matrix, plus the bias entry. -/
theorem keys_apply (x0 : Vec Ideal S1x1024x256 .f32) (w : Vec Ideal S256x256 .f32) (β : Vec Ideal S256 .f32) (t : Fin 1024) (h : Fin 256) :
    k0_pay2 x0 w β (ix2 t h) = (∑ e : Fin 256, x0 (ix3 (0 : Fin 1) t e) * w (ix2 e h)) + β (ix1 h) := by
  unfold k0_pay2 k0_pay1
  simp only [shapeCast_self, addf_apply, truncf_apply, matmul]
  rw [Cert.MatmulNN.matmul_zero_apply dot_S1024x256_S256x256_S1024x256_1_0_0_1_n_n rfl, broadcastTo_1b_ab_apply, shapeCast_a_1a_apply]
  simp only [truncf_apply, shapeCast_1ab_ab_apply]

/-- The stored values at (t, d): row t of the x block times column d of the value matrix, plus the bias entry. -/
theorem values_apply (x0 : Vec Ideal S1x1024x256 .f32) (w : Vec Ideal S256x256 .f32) (β : Vec Ideal S256 .f32) (t : Fin 1024) (h : Fin 256) :
    k0_pay3 x0 w β (ix2 t h) = (∑ e : Fin 256, x0 (ix3 (0 : Fin 1) t e) * w (ix2 e h)) + β (ix1 h) := by
  unfold k0_pay3 k0_pay1
  simp only [shapeCast_self, addf_apply, truncf_apply, matmul]
  rw [Cert.MatmulNN.matmul_zero_apply dot_S1024x256_S256x256_S1024x256_1_0_0_1_n_n rfl, broadcastTo_1b_ab_apply, shapeCast_a_1a_apply]
  simp only [truncf_apply, shapeCast_1ab_ab_apply]

/-! ## The stages of one output block -/

/-- The query tile projected: Q = xq·Wq + bq, a [256, 256] tile. -/
def qTile (xq : Vec Ideal S1x256x256 .f32) (wq : Vec Ideal S256x256 .f32) (βq : Vec Ideal S256 .f32) : FVec Ideal S256x256 .bf16 :=
  truncf .bf16 (addf
    (FloatOps.matmul dot_S256x256_S256x256_S256x256_1_0_0_1_n_n none
      (truncf .bf16 (shapeCast S256x256 xq shapeCasts_S1x256x256_S256x256) bitsLt_bf16_f32)
      (truncf .bf16 wq bitsLt_bf16_f32) (constant S256x256 .f32 0x00000000#32))
    (broadcastTo S256x256 (shapeCast S1x256 βq shapeCasts_S256_S1x256) broadcasts_S1x256_S256x256)) bitsLt_bf16_f32

/-- The score tile: rows of Q against rows of K, a [256, 1024] tile. -/
def scTile (xq : Vec Ideal S1x256x256 .f32) (wq : Vec Ideal S256x256 .f32) (βq : Vec Ideal S256 .f32) (K : Vec Ideal S1024x256 .bf16) : FVec Ideal S256x1024 .f32 :=
  FloatOps.matmul (φ₂ := .bf16) dot_S256x256_S1024x256_S256x1024_1_1_0_0_n_n none (qTile xq wq βq) K (constant S256x1024 .f32 0x00000000#32)

/-- Each score row's maximum. -/
def maxTile (xq : Vec Ideal S1x256x256 .f32) (wq : Vec Ideal S256x256 .f32) (βq : Vec Ideal S256 .f32) (K : Vec Ideal S1024x256 .bf16) : FVec Ideal S256 .f32 :=
  multiReduction .maximumf [1] S256 (scTile xq wq βq K) 0xFF800000#32 reduces_S256x1024_S256 (.inl rfl) rfl

/-- The unnormalised weights: exp (score - row maximum). -/
def wTile (xq : Vec Ideal S1x256x256 .f32) (wq : Vec Ideal S256x256 .f32) (βq : Vec Ideal S256 .f32) (K : Vec Ideal S1024x256 .bf16) : FVec Ideal S256x1024 .f32 :=
  exp (subf (scTile xq wq βq K)
    (broadcastTo S256x1024 (shapeCast S256x1 (maxTile xq wq βq K) shapeCasts_S256_S256x1) broadcasts_S256x1_S256x1024))

/-- Each row's denominator: the sum of its weights. -/
def sumTile (xq : Vec Ideal S1x256x256 .f32) (wq : Vec Ideal S256x256 .f32) (βq : Vec Ideal S256 .f32) (K : Vec Ideal S1024x256 .bf16) : FVec Ideal S256 .f32 :=
  multiReduction .add [1] S256 (wTile xq wq βq K) 0x00000000#32 reduces_S256x1024_S256 (.inl rfl) rfl

/-- The stored output block is the weights times V, divided row by row by the denominators. -/
theorem pay4_eq (xq : Vec Ideal S1x256x256 .f32) (wq : Vec Ideal S256x256 .f32) (βq : Vec Ideal S256 .f32) (K : Vec Ideal S1024x256 .bf16) (V : Vec Ideal S1024x256 .bf16) :
    k0_pay4 xq wq βq K V
      = shapeCast S1x256x256 (divf
          (FloatOps.matmul (φ₂ := .bf16) dot_S256x1024_S1024x256_S256x256_1_0_0_1_n_n none (truncf .bf16 (wTile xq wq βq K) bitsLt_bf16_f32) V
            (constant S256x256 .f32 0x00000000#32))
          (broadcastTo S256x256 (shapeCast S256x1 (sumTile xq wq βq K) shapeCasts_S256_S256x1) broadcasts_S256x1_S256x256))
          shapeCasts_S256x256_S1x256x256 := rfl

/-- Q at (r, h): row r of the query tile times column h of the query matrix, plus the bias entry. -/
theorem qTile_apply (xq : Vec Ideal S1x256x256 .f32) (wq : Vec Ideal S256x256 .f32) (βq : Vec Ideal S256 .f32) (r h : Fin 256) :
    qTile xq wq βq (ix2 r h) = (∑ e : Fin 256, xq (ix3 (0 : Fin 1) r e) * wq (ix2 e h)) + βq (ix1 h) := by
  unfold qTile
  simp only [addf_apply, truncf_apply]
  rw [Cert.MatmulNN.matmul_zero_apply dot_S256x256_S256x256_S256x256_1_0_0_1_n_n rfl, broadcastTo_1b_ab_apply, shapeCast_a_1a_apply]
  simp only [truncf_apply, shapeCast_1ab_ab_apply]

/-- A score at (r, t). -/
theorem scTile_apply (xq : Vec Ideal S1x256x256 .f32) (wq : Vec Ideal S256x256 .f32) (βq : Vec Ideal S256 .f32) (K : Vec Ideal S1024x256 .bf16) (r : Fin 256) (t : Fin 1024) :
    scTile xq wq βq K (ix2 r t) = ∑ h : Fin 256, qTile xq wq βq (ix2 r h) * K (ix2 t h) :=
  scores_apply (qTile xq wq βq) K r t

/-- The row maximum at r is the fold of max from minus infinity over the row's scores. -/
theorem maxTile_apply (xq : Vec Ideal S1x256x256 .f32) (wq : Vec Ideal S256x256 .f32) (βq : Vec Ideal S256 .f32) (K : Vec Ideal S1024x256 .bf16) (r : Fin 256) :
    maxTile xq wq βq K (ix1 r) = rowMax (fun t => scTile xq wq βq K (ix2 r t)) := by
  unfold maxTile
  refine (Ideal.multiReduction_maximumf_single (scTile xq wq βq K) 0xFF800000#32 reduces_S256x1024_S256 (.inl rfl) rfl (ix1 r)).trans ?_
  have hf : (scTile xq wq βq K ∘ reduces_S256x1024_S256.lift (ix1 r)) = fun t : Fin 1024 => scTile xq wq βq K (ix2 r t) :=
    funext fun t => congrArg (scTile xq wq βq K) (lift_row _ r t)
  rw [hf]
  rfl

/-- A weight at (r, t). -/
theorem wTile_apply (xq : Vec Ideal S1x256x256 .f32) (wq : Vec Ideal S256x256 .f32) (βq : Vec Ideal S256 .f32) (K : Vec Ideal S1024x256 .bf16) (r : Fin 256) (t : Fin 1024) :
    wTile xq wq βq K (ix2 r t) = weight (fun t => scTile xq wq βq K (ix2 r t)) t := by
  unfold wTile weight
  show Ideal.exp (scTile xq wq βq K (ix2 r t) - broadcastTo S256x1024 (shapeCast S256x1 (maxTile xq wq βq K) _) _ (ix2 r t)) = _
  rw [broadcastTo_a1_ab_apply, shapeCast_a_a1_apply, maxTile_apply]

/-- The denominator at r. -/
theorem sumTile_apply (xq : Vec Ideal S1x256x256 .f32) (wq : Vec Ideal S256x256 .f32) (βq : Vec Ideal S256 .f32) (K : Vec Ideal S1024x256 .bf16) (r : Fin 256) :
    sumTile xq wq βq K (ix1 r) = denom (fun t => scTile xq wq βq K (ix2 r t)) := by
  unfold sumTile denom
  refine (Ideal.multiReduction_add_single (wTile xq wq βq K) 0x00000000#32 reduces_S256x1024_S256 (.inl rfl) rfl (ix1 r)).trans ?_
  exact Finset.sum_congr rfl fun t _ =>
    (congrArg (wTile xq wq βq K) (lift_row _ r t)).trans (wTile_apply xq wq βq K r t)

/-- The stored output block at (u, r, d): the context of query row r, normalised after the value product. -/
theorem context_apply (xq : Vec Ideal S1x256x256 .f32) (wq : Vec Ideal S256x256 .f32) (βq : Vec Ideal S256 .f32) (K : Vec Ideal S1024x256 .bf16) (V : Vec Ideal S1024x256 .bf16) (u : Fin 1) (r d : Fin 256) :
    k0_pay4 xq wq βq K V (ix3 u r d)
      = ctxAfter (fun t => scTile xq wq βq K (ix2 r t)) (fun t => V (ix2 t d)) := by
  rw [pay4_eq, shapeCast_ab_1ab_apply, divf_apply,
    Cert.MatmulNN.matmul_zero_apply dot_S256x1024_S1024x256_S256x256_1_0_0_1_n_n rfl, broadcastTo_a1_ab_apply, shapeCast_a_a1_apply,
    sumTile_apply]
  unfold ctxAfter
  refine congrArg (fun a => Ideal.div a _) (Finset.sum_congr rfl fun t _ => ?_)
  rw [truncf_apply, wTile_apply]

end Cert.KernelIdeal.Entry

end
-- ==== Proof.KernelWhole.lean ====
/-
  The attention kernel's result array, from its grid.

  The grid has 256 points, t = 4·b + qi for batch b < 64 and query tile qi < 4. The x window's block at t is x[b]
  whole; the weight and bias windows' blocks are their whole arrays; the output window's block at t is rows
  256·qi … 256·qi + 255 of out[b]. The two scratch buffers are written at qi = 0 and kept for qi = 1, 2, 3, so after
  EVERY point t they hold the keys and the values of batch t / 4 (induction on the point). Every point's output
  block is therefore the attention of its 256 query rows against the keys and values of its own batch, and the 256
  blocks tile the result array.
-/
import proofs.«166455_j53944789238186_2_alg».proof.Proof.Gen.KernelIdeal.Value
import proofs.«166455_j53944789238186_2_alg».proof.Proof.KernelCases
import proofs.«166455_j53944789238186_2_alg».proof.Proof.KernelEntry

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Cases Cert.KernelIdeal.Entry Cert.Attn

variable (m : (ℓ : Loc nD τ sig) → Buf (Elt Ideal) ℓ) (ρ : Dev nD → PrngReg)

/-! ## The grid's index maps, decided once -/

/-- At point t = 4·b + qi: the x window is at block (b, 0, 0), the output window at block (b, qi, 0), and the
    query tile starts at row 256·qi of the x block. -/
theorem index_facts : ∀ t : Fin cfg0.N,
    win0_0.index t (0 : Fin 3) = t.val / 4 ∧ win0_0.index t (1 : Fin 3) = 0 ∧ win0_0.index t (2 : Fin 3) = 0
    ∧ win0_7.index t (0 : Fin 3) = t.val / 4 ∧ win0_7.index t (1 : Fin 3) = t.val % 4 ∧ win0_7.index t (2 : Fin 3) = 0
    ∧ k0_off1 (grid0.coords t) (0 : Fin 3) = 0 ∧ k0_off1 (grid0.coords t) (1 : Fin 3) = 256 * (t.val % 4)
    ∧ k0_off1 (grid0.coords t) (2 : Fin 3) = 0 :=
  (by decide +kernel : ∀ t : Fin grid0.N, _)

/-- The weight and bias windows never move. -/
theorem fixed_facts : ∀ t : Fin cfg0.N,
    win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

theorem N_eq : cfg0.N = 256 := N_0

/-- The batch of a point. -/
def batchOf (t : Fin cfg0.N) : Fin 64 := ⟨t.val / 4, by have := t.isLt; have := N_eq; omega⟩

/-- Row r of a point's query tile, as a row of the batch. -/
def rowOf (t : Fin cfg0.N) (r : Fin 256) : Fin 1024 := ⟨256 * (t.val % 4) + r.val, by have := r.isLt; omega⟩

/-! ## The argument arrays and the windows' blocks -/

abbrev aX (c : Dev nD) : SX.Idx → EReal := V m c main_arg0
abbrev aWq (c : Dev nD) : SW.Idx → EReal := V m c main_arg1
abbrev abq (c : Dev nD) : SB.Idx → EReal := V m c main_arg2
abbrev aWk (c : Dev nD) : SW.Idx → EReal := V m c main_arg3
abbrev abk (c : Dev nD) : SB.Idx → EReal := V m c main_arg4
abbrev aWv (c : Dev nD) : SW.Idx → EReal := V m c main_arg5
abbrev abv (c : Dev nD) : SB.Idx → EReal := V m c main_arg6

/-- The x window's block at t is x[t / 4]. -/
theorem xblk_apply (c : Dev nD) (t : Fin cfg0.N) (u : Fin 1) (s : Fin 1024) (e : Fin 256) :
    (iblk m c 0 t : Vec Ideal S1x1024x256 .f32) (ix3 u s e) = aX m c (ix3 (batchOf t) s e) := by
  obtain ⟨e0, e1, e2, -⟩ := index_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * u.val = t.val / 4; have := u.isLt; omega
  | ⟨1, _⟩ => show win0_0.index t (1 : Fin 3) * 1024 + 1 * s.val = s.val; omega
  | ⟨2, _⟩ => show win0_0.index t (2 : Fin 3) * 256 + 1 * e.val = e.val; omega

theorem wqblk_apply (c : Dev nD) (t : Fin cfg0.N) (e h : Fin 256) :
    (iblk m c 1 t : Vec Ideal S256x256 .f32) (ix2 e h) = aWq m c (ix2 e h) := by
  obtain ⟨e0, e1, -⟩ := fixed_facts t
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * e.val = e.val; omega
  | ⟨1, _⟩ => show win0_1.index t (1 : Fin 2) * 256 + 1 * h.val = h.val; omega

theorem bqblk_apply (c : Dev nD) (t : Fin cfg0.N) (h : Fin 256) :
    (iblk m c 2 t : Vec Ideal S256 .f32) (ix1 h) = abq m c (ix1 h) := by
  obtain ⟨-, -, e2, -⟩ := fixed_facts t
  unfold iblk
  rw [View.read_apply]
  show V m c main_arg2 _ = V m c main_arg2 _
  refine congrArg (V m c main_arg2) (funext fun a => Fin.ext ?_)
  match a with
  | ⟨0, _⟩ => show win0_2.index t (0 : Fin 1) * 256 + 1 * h.val = h.val; omega

theorem wkblk_apply (c : Dev nD) (t : Fin cfg0.N) (e h : Fin 256) :
    (iblk m c 3 t : Vec Ideal S256x256 .f32) (ix2 e h) = aWk m c (ix2 e h) := by
  obtain ⟨-, -, -, e0, e1, -⟩ := fixed_facts t
  unfold iblk
  rw [View.read_apply]
  show V m c main_arg3 _ = V m c main_arg3 _
  refine congrArg (V m c main_arg3) (funext fun a => Fin.ext ?_)
  match a with
  | ⟨0, _⟩ => show win0_3.index t (0 : Fin 2) * 256 + 1 * e.val = e.val; omega
  | ⟨1, _⟩ => show win0_3.index t (1 : Fin 2) * 256 + 1 * h.val = h.val; omega

theorem bkblk_apply (c : Dev nD) (t : Fin cfg0.N) (h : Fin 256) :
    (iblk m c 4 t : Vec Ideal S256 .f32) (ix1 h) = abk m c (ix1 h) := by
  obtain ⟨-, -, -, -, -, e2, -⟩ := fixed_facts t
  unfold iblk
  rw [View.read_apply]
  show V m c main_arg4 _ = V m c main_arg4 _
  refine congrArg (V m c main_arg4) (funext fun a => Fin.ext ?_)
  match a with
  | ⟨0, _⟩ => show win0_4.index t (0 : Fin 1) * 256 + 1 * h.val = h.val; omega

theorem wvblk_apply (c : Dev nD) (t : Fin cfg0.N) (e h : Fin 256) :
    (iblk m c 5 t : Vec Ideal S256x256 .f32) (ix2 e h) = aWv m c (ix2 e h) := by
  obtain ⟨-, -, -, -, -, -, e0, e1, -⟩ := fixed_facts t
  unfold iblk
  rw [View.read_apply]
  show V m c main_arg5 _ = V m c main_arg5 _
  refine congrArg (V m c main_arg5) (funext fun a => Fin.ext ?_)
  match a with
  | ⟨0, _⟩ => show win0_5.index t (0 : Fin 2) * 256 + 1 * e.val = e.val; omega
  | ⟨1, _⟩ => show win0_5.index t (1 : Fin 2) * 256 + 1 * h.val = h.val; omega

theorem bvblk_apply (c : Dev nD) (t : Fin cfg0.N) (h : Fin 256) :
    (iblk m c 6 t : Vec Ideal S256 .f32) (ix1 h) = abv m c (ix1 h) := by
  obtain ⟨-, -, -, -, -, -, -, -, e2⟩ := fixed_facts t
  unfold iblk
  rw [View.read_apply]
  show V m c main_arg6 _ = V m c main_arg6 _
  refine congrArg (V m c main_arg6) (funext fun a => Fin.ext ?_)
  match a with
  | ⟨0, _⟩ => show win0_6.index t (0 : Fin 1) * 256 + 1 * h.val = h.val; omega

/-- Row r of the query tile of point t is row 256·qi + r of the x block. -/
theorem queryTile_apply (t : Fin cfg0.N) (x0 : Vec Ideal S1x1024x256 .f32) (u : Fin 1) (r e : Fin 256) :
    queryTile (grid0.coords t) x0 (ix3 u r e) = x0 (ix3 (0 : Fin 1) (rowOf t r) e) := by
  obtain ⟨-, -, -, -, -, -, o0, o1, o2⟩ := index_facts t
  unfold queryTile
  show x0 _ = x0 _
  refine congrArg x0 (funext fun a => Fin.ext ?_)
  match a with
  | ⟨0, _⟩ => show k0_off1 (grid0.coords t) (0 : Fin 3) + 1 * u.val = 0; have := u.isLt; omega
  | ⟨1, _⟩ => show k0_off1 (grid0.coords t) (1 : Fin 3) + 1 * r.val = 256 * (t.val % 4) + r.val; omega
  | ⟨2, _⟩ => show k0_off1 (grid0.coords t) (2 : Fin 3) + 1 * e.val = e.val; omega

/-! ## The keys and values a first query tile stores -/

theorem keysAt_apply (c : Dev nD) (t : Fin cfg0.N) (tt : Fin 1024) (h : Fin 256) :
    k0_pay2 (iblk m c 0 t) (iblk m c 3 t) (iblk m c 4 t) (ix2 tt h) = proj (aX m c) (aWk m c) (abk m c) (batchOf t) tt h := by
  refine (keys_apply (iblk m c 0 t) (iblk m c 3 t) (iblk m c 4 t) tt h).trans ?_
  unfold proj
  rw [bkblk_apply]
  refine congrArg (· + _) (Finset.sum_congr rfl fun e _ => ?_)
  rw [xblk_apply, wkblk_apply]

theorem valuesAt_apply (c : Dev nD) (t : Fin cfg0.N) (tt : Fin 1024) (d : Fin 256) :
    k0_pay3 (iblk m c 0 t) (iblk m c 5 t) (iblk m c 6 t) (ix2 tt d) = proj (aX m c) (aWv m c) (abv m c) (batchOf t) tt d := by
  refine (values_apply (iblk m c 0 t) (iblk m c 5 t) (iblk m c 6 t) tt d).trans ?_
  unfold proj
  rw [bvblk_apply]
  refine congrArg (· + _) (Finset.sum_congr rfl fun e _ => ?_)
  rw [xblk_apply, wvblk_apply]

/-! ## The scratch buffers after every point -/

/-- After point n the scratch buffers hold the keys and the values of batch n / 4: stored at a first query tile,
    kept by the later ones. -/
theorem scratch_inv (c : Dev nD) : ∀ (n : ℕ) (hn : n < cfg0.N) (b : Fin 64), b.val = n / 4 →
    (∀ (tt : Fin 1024) (h : Fin 256), (outsAt0 m c n hn).2.1 (ix2 tt h) = proj (aX m c) (aWk m c) (abk m c) b tt h)
    ∧ (∀ (tt : Fin 1024) (d : Fin 256), (outsAt0 m c n hn).2.2 (ix2 tt d) = proj (aX m c) (aWv m c) (abv m c) b tt d) := by
  intro n
  induction n with
  | zero =>
    intro hn b hb
    obtain rfl : b = batchOf ⟨0, hn⟩ := Fin.ext hb
    rw [outsAt0_A m c ⟨0, hn⟩ rfl]
    dsimp only
    rw [keys_first, values_first]
    exact ⟨fun tt h => keysAt_apply m c ⟨0, hn⟩ tt h, fun tt d => valuesAt_apply m c ⟨0, hn⟩ tt d⟩
  | succ k ih =>
    intro hn b hb
    by_cases h0 : (k + 1) % 4 = 0
    · obtain rfl : b = batchOf ⟨k + 1, hn⟩ := Fin.ext hb
      rw [outsAt0_A m c ⟨k + 1, hn⟩ h0]
      dsimp only
      rw [keys_first, values_first]
      exact ⟨fun tt h => keysAt_apply m c ⟨k + 1, hn⟩ tt h, fun tt d => valuesAt_apply m c ⟨k + 1, hn⟩ tt d⟩
    · rw [outsAt0_B m c ⟨k + 1, hn⟩ h0]
      dsimp only
      unfold sout0_B_0 sout0_B_1
      exact ih (Nat.lt_of_succ_lt hn) b (by omega)

/-! ## Every point's output block -/

/-- With the keys and values of the point's batch in hand, the stored block at (r, d) is the attention of query row
    256·qi + r of that batch. -/
theorem block_ctx (c : Dev nD) (t : Fin cfg0.N) (K V : Vec Ideal S1024x256 .bf16)
    (hK : ∀ (tt : Fin 1024) (h : Fin 256), K (ix2 tt h) = proj (aX m c) (aWk m c) (abk m c) (batchOf t) tt h)
    (hV : ∀ (tt : Fin 1024) (d : Fin 256), V (ix2 tt d) = proj (aX m c) (aWv m c) (abv m c) (batchOf t) tt d)
    (u : Fin 1) (r d : Fin 256) :
    k0_pay4 (queryTile (grid0.coords t) (iblk m c 0 t)) (iblk m c 1 t) (iblk m c 2 t) K V (ix3 u r d)
      = attnAfter (aX m c) (aWq m c) (abq m c) (aWk m c) (abk m c) (aWv m c) (abv m c) (ix3 (batchOf t) (rowOf t r) d) := by
  refine (context_apply (queryTile (grid0.coords t) (iblk m c 0 t)) (iblk m c 1 t) (iblk m c 2 t) K V u r d).trans ?_
  show _ = ctxAfter (scoreRow (aX m c) (aWq m c) (abq m c) (aWk m c) (abk m c) (batchOf t) (rowOf t r))
    (fun tt => proj (aX m c) (aWv m c) (abv m c) (batchOf t) tt d)
  have hf : (fun tt => scTile (queryTile (grid0.coords t) (iblk m c 0 t)) (iblk m c 1 t) (iblk m c 2 t) K (ix2 r tt))
      = scoreRow (aX m c) (aWq m c) (abq m c) (aWk m c) (abk m c) (batchOf t) (rowOf t r) := funext fun tt => by
    refine (scTile_apply (queryTile (grid0.coords t) (iblk m c 0 t)) (iblk m c 1 t) (iblk m c 2 t) K r tt).trans ?_
    unfold scoreRow score
    refine Finset.sum_congr rfl fun h _ => ?_
    rw [hK]
    refine congrArg (· * _) ?_
    refine (qTile_apply (queryTile (grid0.coords t) (iblk m c 0 t)) (iblk m c 1 t) (iblk m c 2 t) r h).trans ?_
    unfold proj
    rw [bqblk_apply]
    refine congrArg (· + _) (Finset.sum_congr rfl fun e _ => ?_)
    rw [queryTile_apply, xblk_apply, wqblk_apply]
  have hv : (fun tt => V (ix2 tt d)) = fun tt => proj (aX m c) (aWv m c) (abv m c) (batchOf t) tt d :=
    funext fun tt => hV tt d
  rw [hf, hv]

/-- What point t leaves in the output's staging buffer, at (r, d). -/
theorem outblock_apply (c : Dev nD) (t : Fin cfg0.N) (u : Fin 1) (r d : Fin 256) :
    (outsAt0 m c t.val t.isLt).1 (ix3 u r d) = attnAfter (aX m c) (aWq m c) (abq m c) (aWk m c) (abk m c) (aWv m c) (abv m c) (ix3 (batchOf t) (rowOf t r) d) := by
  by_cases h0 : t.val % 4 = 0
  · rw [outsAt0_A m c t h0]
    dsimp only
    rw [out_first]
    exact block_ctx m c t _ _ (fun tt h => keysAt_apply m c t tt h) (fun tt d => valuesAt_apply m c t tt d) u r d
  · rw [outsAt0_B m c t h0]
    dsimp only
    rw [out_later]
    have hinv := scratch_inv m c (t.val - 1) (Nat.lt_of_le_of_lt (Nat.sub_le _ _) t.isLt) (batchOf t)
      (by show t.val / 4 = (t.val - 1) / 4; omega)
    exact block_ctx m c t _ _ hinv.1 hinv.2 u r d

/-! ## From the blocks to the result array -/

/-- The result array: attention normalised after the value product, of the argument arrays as launched. -/
abbrev result (c : Dev nD) : SX.Idx → EReal := attnAfter (aX m c) (aWq m c) (abq m c) (aWk m c) (abk m c) (aWv m c) (abv m c)

/-- What point t writes back is block t of the result array. -/
theorem flushed_eq (c : Dev nD) (t : Fin cfg0.N) :
    (dats m 0 c).flushed 7 t = ((cfg0.win 7).blk t).view.read (Elt Ideal) (result m c) := by
  rw [Cert.KernelIdeal.Value.flushed7]
  refine funext fun (j : S1x256x256.Idx) => ?_
  obtain ⟨u, r, d, rfl⟩ : ∃ (u : Fin 1) (r : Fin 256) (d : Fin 256), j = ix3 u r d := ⟨j 0, j 1, j 2, eq_ix3 j⟩
  show (outsAt0 m c t.val t.isLt).1 (ix3 u r d) = result m c (((cfg0.win 7).blk t).view.emb (ix3 u r d))
  rw [outblock_apply]
  obtain ⟨-, -, -, e0, e1, e2, -⟩ := index_facts t
  refine congrArg (result m c) (funext fun a => Fin.ext ?_)
  match a with
  | ⟨0, _⟩ => show t.val / 4 = win0_7.index t (0 : Fin 3) * 1 + 1 * u.val; have := u.isLt; omega
  | ⟨1, _⟩ => show 256 * (t.val % 4) + r.val = win0_7.index t (1 : Fin 3) * 256 + 1 * r.val; omega
  | ⟨2, _⟩ => show d.val = win0_7.index t (2 : Fin 3) * 256 + 1 * d.val; omega

/-- An entry of the result array is in point t's block iff each coordinate is in the block's range. -/
theorem mem_blk (t : Fin cfg0.N) (i : S64x1024x256.Idx) :
    i ∈ ((cfg0.win 7).blk t).view.set ↔ ∀ a : Fin 3, win0_7.index t a * S1x256x256.size a ≤ (i a).val
      ∧ (i a).val < win0_7.index t a * S1x256x256.size a + S1x256x256.size a := by
  show i ∈ ((View.whole main_v0).slice (win0_7.rect t)).set ↔ _
  rw [View.set_slice_whole, Rect.mem_set_unit]
  exact Iff.rfl

/-- Entry (b, s, d) lies in the block of point 4·b + s / 256. -/
theorem cover (i : S64x1024x256.Idx) : ∃ t : Fin cfg0.N, (cfg0.win 7).flush t = true ∧ i ∈ ((cfg0.win 7).blk t).view.set := by
  have h0 : (i 0).val < 64 := (i 0).isLt
  have h1 : (i 1).val < 1024 := (i 1).isLt
  have h2 : (i 2).val < 256 := (i 2).isLt
  obtain ⟨t, ht⟩ : ∃ t : Fin cfg0.N, t.val = 4 * (i 0).val + (i 1).val / 256 :=
    ⟨⟨4 * (i 0).val + (i 1).val / 256, by rw [N_eq]; omega⟩, rfl⟩
  obtain ⟨-, -, -, e0, e1, e2, -⟩ := index_facts t
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 256 ≤ (i 2).val ∧ (i 2).val < win0_7.index t (2 : Fin 3) * 256 + 256; omega

/-- So the result array ends holding attention, normalised after the value product, of the arguments. -/
theorem final (c : Dev nD) : (dats m 0 c).arrAt 7 cfg0.N = result m c :=
  (dats m 0 c).arrAt_eq_of_cover 7 (result m c) (fun t _ => flushed_eq m c t) (cover)

/-- The run, read: the result array at that function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Whole

end
-- ==== Proof.RefValue.lean ====
/-
  The reference program's result, read: it is softmax attention normalised BEFORE the value product.

  The reference computes, for the whole [64, 1024, 256] array at once, q, k, v by three products with the weight
  matrices plus broadcast biases, the scores by a batched product over the feature axis, each score row's maximum
  (a reduction from minus infinity, then one more maximum with minus infinity), the weights exp (score - maximum),
  each row's sum of weights (from zero), the quotient of the two, and the batched product of the quotients with v.
  Read at an entry (b, s, d) each stage is the corresponding piece of the specification.
-/
import proofs.«166455_j53944789238186_2_alg».proof.Proof.Gen.ReferenceIdeal.Read
import proofs.«166455_j53944789238186_2_alg».proof.Proof.AttnSpec
import Idealize.ShloMosaic.Lib.ValueIdx
import Idealize.ShloMosaic.PureOps.Ideal.Laws
import Idealize.ShloMosaic.PureOps.Reduce

noncomputable section

open Idealize.ShloMosaic Idealize.ShloMosaic.ValueIdx

namespace Cert.ReferenceIdeal.RefValue

open Cert.ReferenceIdeal Cert.ReferenceIdeal.Gen Cert.ReferenceIdeal.Read Cert.Attn

/-! ## The three projections -/

/-- The queries at (b, s, h). -/
theorem q_apply (x : SX.Idx → EReal) (W : SW.Idx → EReal) (β : SB.Idx → EReal) (b : Fin 64) (s : Fin 1024) (h : Fin 256) :
    val_main_v3 (F := Ideal) x W β (ix3 b s h) = proj x W β b s h := by
  have hl : ∀ e : Fin 256, lidx_main_v0 (ix3 b s h) e = ix3 b s e := fun e => funext fun a => Fin.ext (by match a with | ⟨0, _⟩ => rfl | ⟨1, _⟩ => rfl | ⟨2, _⟩ => rfl)
  have hr : ∀ e : Fin 256, ridx_main_v0 (ix3 b s h) e = ix2 e h := fun e => funext fun a => Fin.ext (by match a with | ⟨0, _⟩ => rfl | ⟨1, _⟩ => rfl)
  have hb : idx_main_v1 (idx_main_v2 (ix3 b s h)) = ix1 h := funext fun a => Fin.ext (by match a with | ⟨0, _⟩ => rfl)
  rw [val_main_v3_apply, val_main_v0_apply, val_main_v2_apply, val_main_v1_apply, hb]
  simp only [hl, hr]
  rfl

/-- The keys at (b, t, h). -/
theorem k_apply (x : SX.Idx → EReal) (W : SW.Idx → EReal) (β : SB.Idx → EReal) (b : Fin 64) (s : Fin 1024) (h : Fin 256) :
    val_main_v7 (F := Ideal) x W β (ix3 b s h) = proj x W β b s h := by
  have hl : ∀ e : Fin 256, lidx_main_v4 (ix3 b s h) e = ix3 b s e := fun e => funext fun a => Fin.ext (by match a with | ⟨0, _⟩ => rfl | ⟨1, _⟩ => rfl | ⟨2, _⟩ => rfl)
  have hr : ∀ e : Fin 256, ridx_main_v4 (ix3 b s h) e = ix2 e h := fun e => funext fun a => Fin.ext (by match a with | ⟨0, _⟩ => rfl | ⟨1, _⟩ => rfl)
  have hb : idx_main_v5 (idx_main_v6 (ix3 b s h)) = ix1 h := funext fun a => Fin.ext (by match a with | ⟨0, _⟩ => rfl)
  rw [val_main_v7_apply, val_main_v4_apply, val_main_v6_apply, val_main_v5_apply, hb]
  simp only [hl, hr]
  rfl

/-- The values at (b, t, d). -/
theorem v_apply (x : SX.Idx → EReal) (W : SW.Idx → EReal) (β : SB.Idx → EReal) (b : Fin 64) (s : Fin 1024) (h : Fin 256) :
    val_main_v11 (F := Ideal) x W β (ix3 b s h) = proj x W β b s h := by
  have hl : ∀ e : Fin 256, lidx_main_v8 (ix3 b s h) e = ix3 b s e := fun e => funext fun a => Fin.ext (by match a with | ⟨0, _⟩ => rfl | ⟨1, _⟩ => rfl | ⟨2, _⟩ => rfl)
  have hr : ∀ e : Fin 256, ridx_main_v8 (ix3 b s h) e = ix2 e h := fun e => funext fun a => Fin.ext (by match a with | ⟨0, _⟩ => rfl | ⟨1, _⟩ => rfl)
  have hb : idx_main_v9 (idx_main_v10 (ix3 b s h)) = ix1 h := funext fun a => Fin.ext (by match a with | ⟨0, _⟩ => rfl)
  rw [val_main_v11_apply, val_main_v8_apply, val_main_v10_apply, val_main_v9_apply, hb]
  simp only [hl, hr]
  rfl

/-! ## The scores, their row maximum, the weights and the denominator -/

/-- The scores at (b, s, t). -/
theorem scores_apply (x0 : SX.Idx → EReal) (x1 : SW.Idx → EReal) (x2 : SB.Idx → EReal) (x3 : SW.Idx → EReal) (x4 : SB.Idx → EReal) (b : Fin 64) (s t : Fin 1024) :
    val_main_v12 (F := Ideal) x0 x1 x2 x3 x4 (ix3 b s t) = scoreRow x0 x1 x2 x3 x4 b s t := by
  have hl : ∀ h : Fin 256, lidx_main_v12 (ix3 b s t) h = ix3 b s h := fun h => funext fun a => Fin.ext (by match a with | ⟨0, _⟩ => rfl | ⟨1, _⟩ => rfl | ⟨2, _⟩ => rfl)
  have hr : ∀ h : Fin 256, ridx_main_v12 (ix3 b s t) h = ix3 b t h := fun h => funext fun a => Fin.ext (by match a with | ⟨0, _⟩ => rfl | ⟨1, _⟩ => rfl | ⟨2, _⟩ => rfl)
  rw [val_main_v12_apply]
  simp only [hl, hr, q_apply, k_apply]
  rfl

/-- Row (b, s) of a [64, 1024, 1024] array with the column t put back is (b, s, t). -/
theorem lift_row (h : S64x1024x1024.Reduces [2] S64x1024) (b : Fin 64) (s t : Fin 1024) :
    h.lift (ix2 b s) t = ix3 b s t := by
  funext c; apply Fin.ext
  fin_cases c <;> rfl

/-- The row maximum at (b, s): the reduction from minus infinity, and one more maximum with minus infinity. -/
theorem max_apply (x0 : SX.Idx → EReal) (x1 : SW.Idx → EReal) (x2 : SB.Idx → EReal) (x3 : SW.Idx → EReal) (x4 : SB.Idx → EReal) (b : Fin 64) (s : Fin 1024) :
    val_main_v15 (F := Ideal) x0 x1 x2 x3 x4 (ix2 b s) = rowMax (scoreRow x0 x1 x2 x3 x4 b s) := by
  have hred : S64x1024x1024.Reduces [2] S64x1024 := by decide
  rw [val_main_v15_apply, val_main_v14_apply, val_main_cst_0_apply]
  unfold val_main_v13
  rw [Host.reduce_eq_fold_single FloatOps.maximumf _ _ reducesTo_S64x1024x1024_S64x1024_d2 hred h_S_]
  have hf : (val_main_v12 (F := Ideal) x0 x1 x2 x3 x4 ∘ hred.lift (ix2 b s)) = scoreRow x0 x1 x2 x3 x4 b s :=
    funext fun t => (congrArg (val_main_v12 (F := Ideal) x0 x1 x2 x3 x4) (lift_row hred b s t)).trans (scores_apply x0 x1 x2 x3 x4 b s t)
  rw [hf]
  exact max_negInf _

/-- The weights at (b, s, t). -/
theorem weight_apply (x0 : SX.Idx → EReal) (x1 : SW.Idx → EReal) (x2 : SB.Idx → EReal) (x3 : SW.Idx → EReal) (x4 : SB.Idx → EReal) (b : Fin 64) (s t : Fin 1024) :
    val_main_v19 (F := Ideal) x0 x1 x2 x3 x4 (ix3 b s t) = weight (scoreRow x0 x1 x2 x3 x4 b s) t := by
  have hi : idx_main_v16 (idx_main_v17 (ix3 b s t)) = ix2 b s := funext fun a => Fin.ext (by match a with | ⟨0, _⟩ => rfl | ⟨1, _⟩ => rfl)
  rw [val_main_v19_apply, val_main_v18_apply, val_main_v17_apply, val_main_v16_apply, hi, max_apply, scores_apply]
  rfl

/-- The denominator at (b, s). -/
theorem denom_apply (x0 : SX.Idx → EReal) (x1 : SW.Idx → EReal) (x2 : SB.Idx → EReal) (x3 : SW.Idx → EReal) (x4 : SB.Idx → EReal) (b : Fin 64) (s : Fin 1024) :
    val_main_v20 (F := Ideal) x0 x1 x2 x3 x4 (ix2 b s) = denom (scoreRow x0 x1 x2 x3 x4 b s) := by
  have hi : ∀ t : Fin 1024, idx_main_v20 (ix2 b s) t = ix3 b s t := fun t => funext fun a => Fin.ext (by match a with | ⟨0, _⟩ => rfl | ⟨1, _⟩ => rfl | ⟨2, _⟩ => rfl)
  rw [val_main_v20_apply, val_main_cst_1_apply]
  simp only [hi, weight_apply]
  show Ideal.ofBits .f32 0x00000000#32 + _ = _
  rw [Ideal.ofBits_zero_f32, zero_add]
  rfl

/-- The normalised weights at (b, s, t). -/
theorem attn_apply (x0 : SX.Idx → EReal) (x1 : SW.Idx → EReal) (x2 : SB.Idx → EReal) (x3 : SW.Idx → EReal) (x4 : SB.Idx → EReal) (b : Fin 64) (s t : Fin 1024) :
    val_main_v23 (F := Ideal) x0 x1 x2 x3 x4 (ix3 b s t)
      = Ideal.div (weight (scoreRow x0 x1 x2 x3 x4 b s) t) (denom (scoreRow x0 x1 x2 x3 x4 b s)) := by
  have hi : idx_main_v21 (idx_main_v22 (ix3 b s t)) = ix2 b s := funext fun a => Fin.ext (by match a with | ⟨0, _⟩ => rfl | ⟨1, _⟩ => rfl)
  rw [val_main_v23_apply, val_main_v22_apply, val_main_v21_apply, hi, denom_apply, weight_apply]
  rfl

/-! ## The result -/

/-- The reference's result is attention normalised before the value product. -/
theorem result_eq (x0 : SX.Idx → EReal) (x1 : SW.Idx → EReal) (x2 : SB.Idx → EReal) (x3 : SW.Idx → EReal) (x4 : SB.Idx → EReal) (x5 : SW.Idx → EReal) (x6 : SB.Idx → EReal) :
    val_main_v24 (F := Ideal) x0 x1 x2 x3 x4 x5 x6 = attnBefore x0 x1 x2 x3 x4 x5 x6 := by
  funext i
  obtain ⟨b, s, d, rfl⟩ : ∃ (b : Fin 64) (s : Fin 1024) (d : Fin 256), i = ix3 b s d := ⟨i 0, i 1, i 2, eq_ix3 i⟩
  have hl : ∀ t : Fin 1024, lidx_main_v24 (ix3 b s d) t = ix3 b s t := fun t => funext fun a => Fin.ext (by match a with | ⟨0, _⟩ => rfl | ⟨1, _⟩ => rfl | ⟨2, _⟩ => rfl)
  have hr : ∀ t : Fin 1024, ridx_main_v24 (ix3 b s d) t = ix3 b t d := fun t => funext fun a => Fin.ext (by match a with | ⟨0, _⟩ => rfl | ⟨1, _⟩ => rfl | ⟨2, _⟩ => rfl)
  rw [val_main_v24_apply]
  simp only [hl, hr, attn_apply, v_apply]
  rfl

end Cert.ReferenceIdeal.RefValue

end
-- ==== Proof.Finite.lean ====
/-
  From the precondition to real entries.

  The precondition says of each of the seven argument arrays that every entry's absolute value is below plus
  infinity, the seven facts joined by "and". An extended real whose absolute value max x (-x) is below ⊤ is neither
  ⊤ nor ⊥: it is a real number.
-/
import proofs.«166455_j53944789238186_2_alg».proof.Pre_finite_inputs
import proofs.«166455_j53944789238186_2_alg».proof.Proof.AttnSpec
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Pre_finite_inputs.Finite

open Cert.Pre_finite_inputs Cert.Attn

variable [Cert.Pre_finite_inputs.Facts]

instance : Subsingleton S_.Idx := ⟨fun a b => funext fun d => d.elim0⟩

/-- The f32 pattern of plus infinity is ⊤. -/
theorem posInf_eq : Ideal.ofBits .f32 0x7F800000#32 = (⊤ : EReal) := by simp [Ideal.ofBits, Ideal.ieee]

/-- An extended real whose absolute value is below plus infinity is a real number. -/
theorem isReal_of_abs_lt_inf (x : EReal)
    (h : Ideal.cmp .olt (max x (-x)) (Ideal.ofBits .f32 0x7F800000#32) = 1#1) : IsReal x := by
  rw [posInf_eq] at h
  induction x using EReal.rec with
  | bot => simp [Ideal.cmp] at h
  | top => simp [Ideal.cmp] at h
  | coe r => exact ⟨r, rfl⟩

/-- One "all entries are finite": every entry of the array is a real number. -/
theorem all_real {s : Shape} {axes : List (Fin s.rank)} (x : FVec Ideal s .f32)
    (bc : S_.BroadcastsInDim s (![] : Fin 0 → Fin s.rank)) (h' : s.ReducesTo axes S_) (hu : 0 < S_.numel)
    (e : Host.reduce IntOp.andi (cmpf .olt (Host.absf x) (broadcastInDim s ![] bc (constant S_ .f32 0x7F800000#32)))
      (constantI S_ 1 1#1) h' hu ix0 = 1#1) (i : s.Idx) : IsReal (x i) :=
  isReal_of_abs_lt_inf (x i) (Host.reduce_andi_all _ _ h' hu ix0 e i)

/-- Under the precondition every entry of every argument array is a real number. -/
theorem real_inputs (x0 : FVec Ideal S64x1024x256 .f32) (x1 : FVec Ideal S256x256 .f32) (x2 : FVec Ideal S256 .f32)
    (x3 : FVec Ideal S256x256 .f32) (x4 : FVec Ideal S256 .f32) (x5 : FVec Ideal S256x256 .f32) (x6 : FVec Ideal S256 .f32)
    (hpre : fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) := by
  have h := congrFun hpre ix0
  dsimp only [fn, fn_part1] at h
  obtain ⟨h5, a6⟩ := IntOp.andi_eq_one.1 h
  obtain ⟨h4, a5⟩ := IntOp.andi_eq_one.1 h5
  obtain ⟨h3, a4⟩ := IntOp.andi_eq_one.1 h4
  obtain ⟨h2, a3⟩ := IntOp.andi_eq_one.1 h3
  obtain ⟨h1, a2⟩ := IntOp.andi_eq_one.1 h2
  obtain ⟨a0, a1⟩ := IntOp.andi_eq_one.1 h1
  exact ⟨all_real x0 _ _ _ a0, all_real x1 _ _ _ a1, all_real x2 _ _ _ a2, all_real x3 _ _ _ a3, all_real x4 _ _ _ a4,
    all_real x5 _ _ _ a5, all_real x6 _ _ _ a6⟩

end Cert.Pre_finite_inputs.Finite

end
-- ==== Proof.lean ====
/-
  Softmax attention: a tiled kernel against the textbook computation, equal over the extended reals.

  Both programs compute, per batch b, q = x·Wq + bq, k = x·Wk + bk, v = x·Wv + bv, the scores
  sc[s, t] = Σ_h q[s, h]·k[t, h], the weights w[s, t] = exp (sc[s, t] - max_t sc[s, t]) and the denominators
  l[s] = Σ_t w[s, t]. The kernel walks a grid of (batch, query tile): at a batch's first tile it stores k and v for the
  whole batch in two scratch buffers, and at every tile it writes (Σ_t w[s, t]·v[t, d]) / l[s] for its 256 query rows.
  The reference writes Σ_t (w[s, t] / l[s])·v[t, d]. The changes of float format the kernel makes on the way into its
  matrix products are the identity on the extended reals, and a product on the matrix unit, a row reduction and their
  host counterparts are the same finite sums.

  So the two results differ only in where the division by l[s] stands. Under the precondition every input entry is a
  real number; then every score is real, the row maximum is one of the scores, every weight is a positive real and so is
  l[s], and dividing by l[s] is multiplying by the real 1 / l[s], which moves across the finite sum over t.

  The modules: AttnSpec (the function in both orders, and that law), KernelCases and KernelEntry (what one grid point
  stores, as values and entry by entry), KernelWhole (the scratch buffers after every point, by induction on the point,
  and the result array from its 256 blocks), RefValue (the reference's result entry by entry), Finite (real entries from
  the precondition). The three frame claims are the generated frames and the reference's generated run; the
  idealization rewrote nothing, so there is nothing to preserve.
-/
import proofs.«166455_j53944789238186_2_alg».proof.Defs
import proofs.«166455_j53944789238186_2_alg».proof.Proof.Gen.Kernel
import proofs.«166455_j53944789238186_2_alg».proof.Proof.Gen.Kernel.Frame
import proofs.«166455_j53944789238186_2_alg».proof.Proof.Gen.KernelIdeal
import proofs.«166455_j53944789238186_2_alg».proof.Proof.Gen.KernelIdeal.Frame
import proofs.«166455_j53944789238186_2_alg».proof.Proof.Gen.KernelIdeal.Value
import proofs.«166455_j53944789238186_2_alg».proof.Proof.Gen.ReferenceIdeal
import proofs.«166455_j53944789238186_2_alg».proof.Proof.Gen.ReferenceIdeal.Run
import proofs.«166455_j53944789238186_2_alg».proof.Proof.Gen.ReferenceIdeal.Read
import proofs.«166455_j53944789238186_2_alg».proof.Proof.Gen.Pre_finite_inputs
import proofs.«166455_j53944789238186_2_alg».proof.Proof.AttnSpec
import proofs.«166455_j53944789238186_2_alg».proof.Proof.KernelWhole
import proofs.«166455_j53944789238186_2_alg».proof.Proof.RefValue
import proofs.«166455_j53944789238186_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments, the kernel's result array ends at attention
    normalised after the value product and the reference's at attention normalised before it: one function of real
    arguments. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6⟩ := hagree c
  obtain ⟨r0, r1, r2, r3, r4, r5, r6⟩ := Cert.Pre_finite_inputs.Finite.real_inputs _ _ _ _ _ _ _ (hpre c)
  rw [Cert.ReferenceIdeal.Read.val_main_v24_eq, Cert.ReferenceIdeal.RefValue.result_eq, g0, g1, g2, g3, g4, g5, g6]
  exact (Cert.Attn.attnAfter_eq_attnBefore _ _ _ _ _ _ _ r0 r1 r2 r3 r4 r5 r6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
